-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4096x4096 .f32) (main_arg1 : FVec F S64x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S64x4096 : Shape := ⟨2, ![64, 4096]⟩
abbrev S_ : Shape := ⟨0, ![]⟩
abbrev S64 : Shape := ⟨1, ![64]⟩
abbrev S64x1 : Shape := ⟨2, ![64, 1]⟩
abbrev S128x4096 : Shape := ⟨2, ![128, 4096]⟩
abbrev S128x64 : Shape := ⟨2, ![128, 64]⟩

abbrev nBuf : Space → Nat
  | .hbm => 14
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S4096x4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x4096, .f32⟩
  | .hbm, ⟨12, _⟩ => ⟨S64x4096, .f32⟩
  | .hbm, ⟨13, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S64x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S64x4096_S64_d1 : S64x4096.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x4096_0_1 : S64x1.BroadcastsInDim S64x4096 (![0, 1] : Fin 2 → Fin S64x4096.rank)
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  dot_S128x4096_S64x4096_S128x64_1_1_0_0_n_n_wf : DotDims.WF S128x4096 S64x4096 S128x64 [1] [1] [0] [0] [] []
  dot_S128x64_S64x4096_S128x4096_1_0_0_1_n_n_wf : DotDims.WF S128x64 S64x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)

variable [Facts₀]

def dot_S128x4096_S64x4096_S128x64_1_1_0_0_n_n : DotDims S128x4096 S64x4096 S128x64 where
  lhsContracting := [1]
  rhsContracting := [1]
  lhsNonContracting := [0]
  rhsNonContracting := [0]
  lhsBatch := []
  rhsBatch := []
  wf := dot_S128x4096_S64x4096_S128x64_1_1_0_0_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S64x4096 : Shape := ⟨2, ![64, 4096]⟩
abbrev S_ : Shape := ⟨0, ![]⟩
abbrev S64 : Shape := ⟨1, ![64]⟩
abbrev S64x1 : Shape := ⟨2, ![64, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S4096x4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x4096, .f32⟩
  | .hbm, ⟨12, _⟩ => ⟨S64x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S64x4096_S64_d1 : S64x4096.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x4096_0_1 : S64x1.BroadcastsInDim S64x4096 (![0, 1] : Fin 2 → Fin S64x4096.rank)
  bcast_S_S4096x4096 : S_.BroadcastsInDim S4096x4096 (![] : Fin 0 → Fin S4096x4096.rank)
  dot_S64x4096_S64x4096_S4096x4096_0_0_1_1_n_n_wf : DotDims.WF S64x4096 S64x4096 S4096x4096 [0] [0] [1] [1] [] []
  dot_S4096x4096_S4096x4096_S4096x4096_1_0_0_1_n_n_wf : DotDims.WF S4096x4096 S4096x4096 S4096x4096 [1] [0] [0] [1] [] []

variable [Facts₀]

def dot_S64x4096_S64x4096_S4096x4096_0_0_1_1_n_n : DotDims S64x4096 S64x4096 S4096x4096 where
  lhsContracting := [0]
  rhsContracting := [0]
  lhsNonContracting := [1]
  rhsNonContracting := [1]
  lhsBatch := []
  rhsBatch := []
  wf := dot_S64x4096_S64x4096_S4096x4096_0_0_1_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Reals.lean ====
/-
  From the precondition to real entries.

  The precondition says: for each of the three arguments, every entry's absolute value is below `+∞`. On the extended
  reals `max x (-x) < ⊤` excludes both infinities, so every entry is (the cast of) a real number. The precondition is a
  conjunction of three "for all entries" tests, each a reduction by `and` over all axes.
-/
import proofs.«158902_j73916387164402_2_alg».proof.Pre_finite_inputs
import proofs.«158902_j73916387164402_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Reals

open Cert.Pre_finite_inputs Idealize.ShloMosaic Idealize.ShloMosaic.ValueIdx

instance : Subsingleton S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value tests below `+∞` is a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe r => exact ⟨r, rfl⟩
  | top => simp at hlt

variable [Facts]
open Facts

/-- Under the precondition every entry of every argument is a real. -/
theorem reals_of_pre (a0 : FVec Ideal S4096x4096 .f32) (a1 : FVec Ideal S64x4096 .f32) (a2 : FVec Ideal S4096x4096 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn] at h0
  obtain ⟨h01, h2⟩ := IntOp.andi_eq_one.1 h0
  obtain ⟨h0', h1⟩ := IntOp.andi_eq_one.1 h01
  exact ⟨fun i => real_of_abs_lt _ (Host.reduce_andi_all _ _ _ _ ix0 h0' i),
    fun i => real_of_abs_lt _ (Host.reduce_andi_all _ _ _ _ ix0 h1 i),
    fun i => real_of_abs_lt _ (Host.reduce_andi_all _ _ _ _ ix0 h2 i)⟩

end Cert.Pre_finite_inputs.Reals

end
-- ==== Proof.Law.lean ====
/-
  The mathematics of one gradient step with a rank-64 decay, in two arrangements.

  With `W` a row of the weight matrix, `X` the 64 normalized input rows, `a` the decay rate and `n` the batch
  size, the reference multiplies the row by the decay matrix `δ - a · (Xᵀ X) / n`, while the kernel subtracts from
  the row `(a / n)` times the row pushed through `Xᵀ` and then `X`:

      ∑ k, W k · (δ k j - a · ((∑ b, X b k · X b j) / n))  =  W j - (a / n) · ∑ b, (∑ k, W k · X b k) · X b j.

  Over the reals this is distributivity, the exchange of two finite sums, and the Kronecker sum `∑ k, W k · δ k j = W j`.
  On the extended reals distributivity fails at the infinities, so the law is stated for entries that are
  (casts of) reals; the division by `n` there is the product with `1 / n`.
-/
import Idealize.ShloMosaic.PureOps.Ideal

noncomputable section

namespace Cert.DecayStep

open Idealize.ShloMosaic

/-- The cast of a finite real sum is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two arrangements agree over the reals. -/
theorem real_law {I B : Type*} [Fintype I] [Fintype B] [DecidableEq I]
    (w : I → ℝ) (x : B → I → ℝ) (a n : ℝ) (j : I) :
    ∑ k, w k * ((if k = j then 1 else 0) - a * ((∑ b, x b k * x b j) * (1 / n)))
      = w j - (a / n) * ∑ b, (∑ k, w k * x b k) * x b j := by
  simp only [mul_sub, Finset.sum_sub_distrib, mul_ite, mul_one, mul_zero, Finset.sum_ite_eq', Finset.mem_univ, if_true]
  congr 1
  simp only [Finset.sum_mul, Finset.mul_sum]
  rw [Finset.sum_comm]
  refine Finset.sum_congr rfl fun b _ => Finset.sum_congr rfl fun k _ => ?_
  ring

/-- The same on the extended reals, for real entries: the reference's quotient by `n` is the product with `1 / n`, and
    every cast moves outside the sums and products. The Kronecker entry is the cast of the natural number `0` or `1`. -/
theorem ereal_law {I B : Type*} [Fintype I] [Fintype B] [DecidableEq I]
    (w : I → ℝ) (x : B → I → ℝ) (a n : ℝ) (hn : n ≠ 0) (j : I) :
    ∑ k, (w k : EReal) * ((((if k = j then 1 else 0 : ℕ) : ℝ) : EReal)
        - (a : EReal) * Ideal.div (∑ b, (x b k : EReal) * (x b j : EReal)) (n : EReal))
      = (w j : EReal) - ((a / n : ℝ) : EReal) * ∑ b, (∑ k, (w k : EReal) * (x b k : EReal)) * (x b j : EReal) := by
  simp only [Ideal.div_coe hn, ← EReal.coe_mul, ← coe_sum, ← EReal.coe_sub]
  refine congrArg _ ?_
  simp only [Nat.cast_ite, Nat.cast_one, Nat.cast_zero]
  exact real_law w x a n j

/-! ## The literals

Each float word denotes a dyadic rational; the kernel's folded scale is exactly the decay rate's word divided by `64`
(the same significand, the exponent lowered by six). -/

/-- The decay rate's word: `10737418 · 2⁻³⁰`. -/
theorem ofBits_rate : Ideal.ofBits .f32 0x3C23D70A#32 = ((10737418 / 2 ^ 30 : ℝ) : EReal) := by
  simp [Ideal.ofBits, Ideal.ieee, -EReal.coe_mul]; norm_num

/-- The kernel's folded scale: the decay rate's value divided by `64`. -/
theorem ofBits_scale : Ideal.ofBits .f32 0x3923D70A#32 = ((10737418 / 2 ^ 30 / 64 : ℝ) : EReal) := by
  simp [Ideal.ofBits, Ideal.ieee, -EReal.coe_mul]; norm_num

/-- The batch size's word denotes `64`. -/
theorem ofBits_batch : Ideal.ofBits .f32 0x42800000#32 = ((64 : ℝ) : EReal) := by
  simp [Ideal.ofBits, Ideal.ieee, -EReal.coe_mul]; norm_num

/-- The normalization's guard: `11258999 · 2⁻⁵⁰`, a positive real. -/
theorem ofBits_guard : Ideal.ofBits .f32 0x322BCC77#32 = ((11258999 / 2 ^ 50 : ℝ) : EReal) := by
  simp [Ideal.ofBits, Ideal.ieee, -EReal.coe_mul]; norm_num

end Cert.DecayStep

end
-- ==== Proof.RefRead.lean ====
/-
  The reference's result read at an entry.

  With `xn` the normalized input rows (each row of the input divided by its Euclidean norm plus a small guard), the
  reference forms the Gram matrix `∑ b, xn b k · xn b j`, divides it by the batch size, scales it by the decay rate,
  subtracts it from the identity matrix (an equality test of the two coordinates, converted to 0 or 1), multiplies the
  weights by the result, and subtracts the learning rate times the gradient. Entry `(i, j)`:

      ∑ k, W i k · (δ k j - rate · ((∑ b, xn b k · xn b j) / 64)) - lr · G i j.
-/
import proofs.«158902_j73916387164402_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-! ## The identity matrix -/

/-- Two coordinates below 4096, as 32-bit words, are equal words exactly when they are equal: the equality test's bit,
    read as a natural number, is the Kronecker delta. -/
theorem kronecker (k j : Fin 4096) :
    FloatOps.uitofp (F := Ideal) .f32 (IntOp.cmpi .eq (IntOp.addi (BitVec.ofNat 32 k.val) 0#32) (BitVec.ofNat 32 j.val))
      = (((if k = j then 1 else 0 : ℕ) : ℝ) : EReal) := by
  show (((IntOp.cmpi .eq (IntOp.addi (BitVec.ofNat 32 k.val) 0#32) (BitVec.ofNat 32 j.val)).toNat : ℝ) : EReal) = _
  congr 2
  unfold IntOp.cmpi IntOp.addi
  rw [BitVec.add_zero]
  by_cases h : k = j
  · subst h; simp
  · rw [if_neg h]
    have hne : (BitVec.ofNat 32 k.val == BitVec.ofNat 32 j.val) = false := by
      rw [beq_eq_false_iff_ne]
      intro e
      have e' := congrArg BitVec.toNat e
      simp only [BitVec.toNat_ofNat] at e'
      have hk := k.isLt
      have hj := j.isLt
      rw [Nat.mod_eq_of_lt (by omega), Nat.mod_eq_of_lt (by omega)] at e'
      exact h (Fin.ext e')
    simp [hne]

/-- Entry `(k, j)` of the identity matrix. -/
theorem eye_apply (k j : Fin 4096) :
    val_main_v13 (F := Ideal) (ix2 k j) = (((if k = j then 1 else 0 : ℕ) : ℝ) : EReal) := by
  rw [val_main_v13_apply, val_main_v12_apply, val_main_v11_apply, val_main_v8_apply, val_main_v9_apply,
    val_main_v10_apply, val_main_c_apply]
  exact kronecker k j

/-! ## The Gram matrix of the normalized rows, and the decay matrix -/

theorem gram_lidx (k j : Fin 4096) (b : Fin 64) : lidx_main_v5 (ix2 k j) b = ix2 b k :=
  funext fun a => Fin.ext (by match a with | ⟨0, _⟩ => rfl | ⟨1, _⟩ => rfl)
theorem gram_ridx (k j : Fin 4096) (b : Fin 64) : ridx_main_v5 (ix2 k j) b = ix2 b j :=
  funext fun a => Fin.ext (by match a with | ⟨0, _⟩ => rfl | ⟨1, _⟩ => rfl)

/-- Entry `(k, j)` of the Gram matrix: the sum over the 64 rows. -/
theorem gram_apply (x1 : (⟨S64x4096, .f32⟩ : BufTy).Contents (Elt Ideal)) (k j : Fin 4096) :
    val_main_v5 (F := Ideal) x1 (ix2 k j)
      = ∑ b : Fin 64, val_main_v4 (F := Ideal) x1 (ix2 b k) * val_main_v4 (F := Ideal) x1 (ix2 b j) := by
  rw [val_main_v5_apply]
  exact Finset.sum_congr rfl fun b _ => by rw [gram_lidx, gram_ridx]

/-- Entry `(k, j)` of the decay matrix: the identity's entry minus the rate times the Gram entry over the batch size. -/
theorem decay_apply (x1 : (⟨S64x4096, .f32⟩ : BufTy).Contents (Elt Ideal)) (k j : Fin 4096) :
    val_main_v16 (F := Ideal) x1 (ix2 k j)
      = (((if k = j then 1 else 0 : ℕ) : ℝ) : EReal)
        - Ideal.ofBits .f32 0x3C23D70A#32
          * Ideal.div (∑ b : Fin 64, val_main_v4 (F := Ideal) x1 (ix2 b k) * val_main_v4 (F := Ideal) x1 (ix2 b j))
              (Ideal.ofBits .f32 0x42800000#32) := by
  rw [val_main_v16_apply, eye_apply, val_main_v15_apply, val_main_v14_apply, val_main_cst_1_apply, val_main_v7_apply,
    val_main_v6_apply, val_main_cst_0_apply, gram_apply]
  rfl

/-! ## The result -/

theorem prod_lidx (i j k : Fin 4096) : lidx_main_v17 (ix2 i j) k = ix2 i k :=
  funext fun a => Fin.ext (by match a with | ⟨0, _⟩ => rfl | ⟨1, _⟩ => rfl)
theorem prod_ridx (i j k : Fin 4096) : ridx_main_v17 (ix2 i j) k = ix2 k j :=
  funext fun a => Fin.ext (by match a with | ⟨0, _⟩ => rfl | ⟨1, _⟩ => rfl)

/-- Entry `(i, j)` of the reference's result. -/
theorem result_apply (W : (⟨S4096x4096, .f32⟩ : BufTy).Contents (Elt Ideal)) (x1 : (⟨S64x4096, .f32⟩ : BufTy).Contents (Elt Ideal))
    (G : (⟨S4096x4096, .f32⟩ : BufTy).Contents (Elt Ideal)) (i j : Fin 4096) :
    val_main_v20 (F := Ideal) W x1 G (ix2 i j)
      = (∑ k : Fin 4096, W (ix2 i k) * ((((if k = j then 1 else 0 : ℕ) : ℝ) : EReal)
          - Ideal.ofBits .f32 0x3C23D70A#32
            * Ideal.div (∑ b : Fin 64, val_main_v4 (F := Ideal) x1 (ix2 b k) * val_main_v4 (F := Ideal) x1 (ix2 b j))
                (Ideal.ofBits .f32 0x42800000#32)))
        - Ideal.ofBits .f32 0x3A83126F#32 * G (ix2 i j) := by
  rw [val_main_v20_apply, val_main_v17_apply, val_main_v19_apply, val_main_v18_apply, val_main_cst_2_apply]
  have hs : ∑ k : Fin 4096, W (lidx_main_v17 (ix2 i j) k) * val_main_v16 (F := Ideal) x1 (ridx_main_v17 (ix2 i j) k)
      = ∑ k : Fin 4096, W (ix2 i k) * ((((if k = j then 1 else 0 : ℕ) : ℝ) : EReal)
          - Ideal.ofBits .f32 0x3C23D70A#32
            * Ideal.div (∑ b : Fin 64, val_main_v4 (F := Ideal) x1 (ix2 b k) * val_main_v4 (F := Ideal) x1 (ix2 b j))
                (Ideal.ofBits .f32 0x42800000#32)) :=
    Finset.sum_congr rfl fun k _ => by rw [prod_lidx, prod_ridx, decay_apply]
  rw [hs]
  rfl

/-! ## The normalized rows -/

theorem norm_idx (b : Fin 64) (k k' : Fin 4096) :
    idx_main_call0_v1 (idx_main_call0_v2 (idx_main_v3 (ix2 b k))) k' = ix2 b k' :=
  funext fun a => Fin.ext (by match a with | ⟨0, _⟩ => rfl | ⟨1, _⟩ => rfl)

/-- Entry `(b, k)` of the normalized rows: the input's entry over the square root of its row's sum of squares, plus
    the guard. -/
theorem normalized_apply (x1 : (⟨S64x4096, .f32⟩ : BufTy).Contents (Elt Ideal)) (b : Fin 64) (k : Fin 4096) :
    val_main_v4 (F := Ideal) x1 (ix2 b k)
      = Ideal.div (x1 (ix2 b k))
          (Ideal.sqrt (0 + ∑ k' : Fin 4096, x1 (ix2 b k') * x1 (ix2 b k')) + Ideal.ofBits .f32 0x322BCC77#32) := by
  rw [val_main_v4_apply, val_main_v3_apply, val_main_v2_apply, val_main_v0_apply, val_main_call0_v2_apply,
    val_main_call0_v1_apply, val_main_v1_apply, val_main_cst_apply, val_main_call0_cst_apply]
  have hs : ∑ k' : Fin 4096, val_main_call0_v0 (F := Ideal) x1 (idx_main_call0_v1 (idx_main_call0_v2 (idx_main_v3 (ix2 b k))) k')
      = ∑ k' : Fin 4096, x1 (ix2 b k') * x1 (ix2 b k') :=
    Finset.sum_congr rfl fun k' _ => by rw [norm_idx, val_main_call0_v0_apply]; rfl
  rw [hs]
  simp only [Ideal.hostDivf_def, Ideal.hostUnary_sqrt_def, Ideal.addf_def, Ideal.ofBits_def, Ideal.ofBits_zero_f32]

end Cert.ReferenceIdeal.RefValue

end
-- ==== Proof.Payload.lean ====
/-
  The kernel body's one store, read at an entry.

  At a grid point the body holds a block `w` of 128 weight rows, all 64 normalized input rows `x`, and the matching
  block `g` of gradient rows. On the extended reals the changes of float format are the identity, a matrix product
  into a zero accumulator is the plain sum over the contracted axis, and so entry `(p, q)` of what it stores is

      w p q - scale · ∑ b, (∑ k, w p k · x b k) · x b q - rate · g p q :

  the row `p` pushed through `xᵀ` (a sum over the 4096 columns), then through `x` (a sum over the 64 rows).
-/
import proofs.«158902_j73916387164402_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The first product: rows of the block against rows of `x`, contracting the 4096 columns of both -/

theorem lhsA_0 (i : S128x64.Idx) (c : dot_S128x4096_S64x4096_S128x64_1_1_0_0_n_n.contr.Idx) : (dot_S128x4096_S64x4096_S128x64_1_1_0_0_n_n.lhsIdx i c 0).val = (i 0).val := by
  unfold DotDims.lhsIdx
  rw [dif_neg (show ¬(0 : Fin S128x4096.rank) ∈ dot_S128x4096_S64x4096_S128x64_1_1_0_0_n_n.lhsBatch by decide), dif_pos (show (0 : Fin S128x4096.rank) ∈ dot_S128x4096_S64x4096_S128x64_1_1_0_0_n_n.lhsNonContracting by decide)]
  rfl
theorem lhsA_1 (i : S128x64.Idx) (c : dot_S128x4096_S64x4096_S128x64_1_1_0_0_n_n.contr.Idx) : (dot_S128x4096_S64x4096_S128x64_1_1_0_0_n_n.lhsIdx i c 1).val = (c ⟨0, by decide⟩).val :=
  dot_S128x4096_S64x4096_S128x64_1_1_0_0_n_n.lhsIdx_val_of_single rfl i c
theorem rhsA_0 (i : S128x64.Idx) (c : dot_S128x4096_S64x4096_S128x64_1_1_0_0_n_n.contr.Idx) : (dot_S128x4096_S64x4096_S128x64_1_1_0_0_n_n.rhsIdx i c 0).val = (i 1).val := by
  unfold DotDims.rhsIdx
  rw [dif_neg (show ¬(0 : Fin S64x4096.rank) ∈ dot_S128x4096_S64x4096_S128x64_1_1_0_0_n_n.rhsBatch by decide), dif_pos (show (0 : Fin S64x4096.rank) ∈ dot_S128x4096_S64x4096_S128x64_1_1_0_0_n_n.rhsNonContracting by decide)]
  rfl
theorem rhsA_1 (i : S128x64.Idx) (c : dot_S128x4096_S64x4096_S128x64_1_1_0_0_n_n.contr.Idx) : (dot_S128x4096_S64x4096_S128x64_1_1_0_0_n_n.rhsIdx i c 1).val = (c ⟨0, by decide⟩).val :=
  dot_S128x4096_S64x4096_S128x64_1_1_0_0_n_n.rhsIdx_val_of_single rfl i c

/-- Entry `(p, b)` of the first product is the sum over the columns `k` of `l p k · r b k`. -/
theorem rowsAgainstRows (l : FVec Ideal S128x4096 .bf16) (r : FVec Ideal S64x4096 .bf16) (p : Fin 128) (b : Fin 64) :
    matmul dot_S128x4096_S64x4096_S128x64_1_1_0_0_n_n none l r (constant S128x64 .f32 0x00000000#32) (ix2 p b)
      = ∑ k : Fin 4096, l (ix2 p k) * r (ix2 b k) := by
  simp only [matmul]
  rw [Ideal.matmul_constant_zero_apply, ← Equiv.sum_comp (contrEquiv1 dot_S128x4096_S64x4096_S128x64_1_1_0_0_n_n 4096 rfl rfl).symm]
  refine Finset.sum_congr rfl fun k _ => ?_
  have hk := contrEquiv1_symm_val dot_S128x4096_S64x4096_S128x64_1_1_0_0_n_n 4096 rfl rfl k
  have el : dot_S128x4096_S64x4096_S128x64_1_1_0_0_n_n.lhsIdx (ix2 p b) ((contrEquiv1 dot_S128x4096_S64x4096_S128x64_1_1_0_0_n_n 4096 rfl rfl).symm k) = ix2 p k := funext fun a => Fin.ext (by
    match a with
    | ⟨0, _⟩ => exact lhsA_0 _ _
    | ⟨1, _⟩ => exact (lhsA_1 _ _).trans hk)
  have er : dot_S128x4096_S64x4096_S128x64_1_1_0_0_n_n.rhsIdx (ix2 p b) ((contrEquiv1 dot_S128x4096_S64x4096_S128x64_1_1_0_0_n_n 4096 rfl rfl).symm k) = ix2 b k := funext fun a => Fin.ext (by
    match a with
    | ⟨0, _⟩ => exact rhsA_0 _ _
    | ⟨1, _⟩ => exact (rhsA_1 _ _).trans hk)
  rw [el, er]

/-! ## The second product: that 128 × 64 result against `x`, contracting the 64 rows -/

theorem lhsB_0 (i : S128x4096.Idx) (c : dot_S128x64_S64x4096_S128x4096_1_0_0_1_n_n.contr.Idx) : (dot_S128x64_S64x4096_S128x4096_1_0_0_1_n_n.lhsIdx i c 0).val = (i 0).val := by
  unfold DotDims.lhsIdx
  rw [dif_neg (show ¬(0 : Fin S128x64.rank) ∈ dot_S128x64_S64x4096_S128x4096_1_0_0_1_n_n.lhsBatch by decide), dif_pos (show (0 : Fin S128x64.rank) ∈ dot_S128x64_S64x4096_S128x4096_1_0_0_1_n_n.lhsNonContracting by decide)]
  rfl
theorem lhsB_1 (i : S128x4096.Idx) (c : dot_S128x64_S64x4096_S128x4096_1_0_0_1_n_n.contr.Idx) : (dot_S128x64_S64x4096_S128x4096_1_0_0_1_n_n.lhsIdx i c 1).val = (c ⟨0, by decide⟩).val :=
  dot_S128x64_S64x4096_S128x4096_1_0_0_1_n_n.lhsIdx_val_of_single rfl i c
theorem rhsB_0 (i : S128x4096.Idx) (c : dot_S128x64_S64x4096_S128x4096_1_0_0_1_n_n.contr.Idx) : (dot_S128x64_S64x4096_S128x4096_1_0_0_1_n_n.rhsIdx i c 0).val = (c ⟨0, by decide⟩).val :=
  dot_S128x64_S64x4096_S128x4096_1_0_0_1_n_n.rhsIdx_val_of_single rfl i c
theorem rhsB_1 (i : S128x4096.Idx) (c : dot_S128x64_S64x4096_S128x4096_1_0_0_1_n_n.contr.Idx) : (dot_S128x64_S64x4096_S128x4096_1_0_0_1_n_n.rhsIdx i c 1).val = (i 1).val := by
  unfold DotDims.rhsIdx
  rw [dif_neg (show ¬(1 : Fin S64x4096.rank) ∈ dot_S128x64_S64x4096_S128x4096_1_0_0_1_n_n.rhsBatch by decide), dif_pos (show (1 : Fin S64x4096.rank) ∈ dot_S128x64_S64x4096_S128x4096_1_0_0_1_n_n.rhsNonContracting by decide)]
  rfl

/-- Entry `(p, q)` of the second product is the sum over the rows `b` of `l p b · r b q`. -/
theorem throughRows (l : FVec Ideal S128x64 .bf16) (r : FVec Ideal S64x4096 .bf16) (p : Fin 128) (q : Fin 4096) :
    matmul dot_S128x64_S64x4096_S128x4096_1_0_0_1_n_n none l r (constant S128x4096 .f32 0x00000000#32) (ix2 p q)
      = ∑ b : Fin 64, l (ix2 p b) * r (ix2 b q) := by
  simp only [matmul]
  rw [Ideal.matmul_constant_zero_apply, ← Equiv.sum_comp (contrEquiv1 dot_S128x64_S64x4096_S128x4096_1_0_0_1_n_n 64 rfl rfl).symm]
  refine Finset.sum_congr rfl fun k _ => ?_
  have hk := contrEquiv1_symm_val dot_S128x64_S64x4096_S128x4096_1_0_0_1_n_n 64 rfl rfl k
  have el : dot_S128x64_S64x4096_S128x4096_1_0_0_1_n_n.lhsIdx (ix2 p q) ((contrEquiv1 dot_S128x64_S64x4096_S128x4096_1_0_0_1_n_n 64 rfl rfl).symm k) = ix2 p k := funext fun a => Fin.ext (by
    match a with
    | ⟨0, _⟩ => exact lhsB_0 _ _
    | ⟨1, _⟩ => exact (lhsB_1 _ _).trans hk)
  have er : dot_S128x64_S64x4096_S128x4096_1_0_0_1_n_n.rhsIdx (ix2 p q) ((contrEquiv1 dot_S128x64_S64x4096_S128x4096_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The stored value at an entry -/

/-- Entry `(p, q)` of the body's store, from the three loaded blocks. -/
theorem stored_apply (w : Vec Ideal S128x4096 .f32) (x : Vec Ideal S64x4096 .f32) (g : Vec Ideal S128x4096 .f32)
    (p : Fin 128) (q : Fin 4096) :
    k0_pay1 (F := Ideal) w x g (ix2 p q)
      = w (ix2 p q)
        - Ideal.ofBits .f32 0x3923D70A#32 * (∑ b : Fin 64, (∑ k : Fin 4096, w (ix2 p k) * x (ix2 b k)) * x (ix2 b q))
        - Ideal.ofBits .f32 0x3A83126F#32 * g (ix2 p q) := by
  unfold k0_pay1
  simp only [subf_apply, mulf_apply, broadcast_apply, throughRows, truncf_apply, rowsAgainstRows, shapeCast_self]
  rfl

end Cert.KernelIdeal.Body

end
-- ==== Proof.KernelArray.lean ====
/-
  From the blocks to the whole array.

  The grid has 32 points; point `t` stages rows `128·t … 128·t + 127` of the weights and of the gradient, all of the
  normalized input rows, and writes back the same rows of the result. So entry `(p, q)` of the block a point writes is
  entry `(128·t + p, q)` of ONE function of the whole arrays — `updated` below — and the 32 blocks tile the 4096 rows:
  the point covering row `r` is `r / 128`. The normalized rows are what the operations before the kernel leave in the
  second operand's array: each input row divided by its Euclidean norm plus the guard.
-/
import proofs.«158902_j73916387164402_2_alg».proof.Proof.Gen.KernelIdeal.Value
import proofs.«158902_j73916387164402_2_alg».proof.Proof.Payload
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The whole-array function -/

/-- Entry `(i, j)` of the updated weights, in the kernel's arrangement: the weight, minus the scale times row `i`
    pushed through the transposed and then the plain normalized rows, minus the learning rate times the gradient. -/
def updatedAt (W : Vec Ideal S4096x4096 .f32) (X : Vec Ideal S64x4096 .f32) (G : Vec Ideal S4096x4096 .f32)
    (i j : Fin 4096) : EReal :=
  W (ix2 i j)
    - Ideal.ofBits .f32 0x3923D70A#32 * (∑ b : Fin 64, (∑ k : Fin 4096, W (ix2 i k) * X (ix2 b k)) * X (ix2 b j))
    - Ideal.ofBits .f32 0x3A83126F#32 * G (ix2 i j)

/-- The updated weights as one array. -/
def updated (W : Vec Ideal S4096x4096 .f32) (X : Vec Ideal S64x4096 .f32) (G : Vec Ideal S4096x4096 .f32) :
    Vec Ideal S4096x4096 .f32 :=
  fun idx => updatedAt W X G ⟨(idx 0).val, idx2_lt0 idx⟩ ⟨(idx 1).val, idx2_lt1 idx⟩

/-- What a point stores at `(p, q)` is entry `(R, q)` of `updated`, when its weight and gradient blocks are rows
    `R` of the arrays at `p` and its third block is all of `X`. -/
theorem stored_eq (W : Vec Ideal S4096x4096 .f32) (X : Vec Ideal S64x4096 .f32) (G : Vec Ideal S4096x4096 .f32)
    (w : Vec Ideal S128x4096 .f32) (x : Vec Ideal S64x4096 .f32) (g : Vec Ideal S128x4096 .f32)
    (p : Fin 128) (q : Fin 4096) (R : Fin 4096)
    (hw : ∀ k : Fin 4096, w (ix2 p k) = W (ix2 R k))
    (hx : ∀ (b : Fin 64) (k : Fin 4096), x (ix2 b k) = X (ix2 b k))
    (hg : g (ix2 p q) = G (ix2 R q)) :
    k0_pay1 (F := Ideal) w x g (ix2 p q) = updated W X G (ix2 R q) := by
  rw [stored_apply]
  show _ = updatedAt W X G R q
  unfold updatedAt
  simp only [hw, hx, hg]

/-! ## The grid's index maps -/

theorem hz : (![0, 0] : Fin 2 → Nat) = fun _ => 0 := funext fun a => by fin_cases a <;> rfl

theorem grid_lt (t : Fin cfg0.N) : t.val < 32 := by
  have h := t.isLt
  have e : cfg0.N = 32 := N_0
  omega

/-- The block indices, decided over the 32 points: the weights', the gradient's and the result's row block is the
    point's number; the normalized rows are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `128·t + p` of the array. -/
def row (t : Fin cfg0.N) (p : Fin 128) : Fin 4096 :=
  ⟨t.val * 128 + p.val, by have := grid_lt t; have := p.isLt; omega⟩

theorem emb_w (t : Fin cfg0.N) (p : Fin 128) (k : Fin 4096) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 128 + 1 * p.val = t.val * 128 + p.val; omega
  | ⟨1, _⟩ => show win0_0.index t (1 : Fin 2) * 4096 + 1 * k.val = k.val; omega

theorem emb_x (t : Fin cfg0.N) (b : Fin 64) (k : Fin 4096) :
    ((cfg0.win 1).blk t).view.emb (ix2 b k) = ix2 b k := by
  obtain ⟨-, -, e2, e3, -⟩ := idx_facts t
  funext a; apply Fin.ext
  match a with
  | ⟨0, _⟩ => show win0_1.index t (0 : Fin 2) * 64 + 1 * b.val = b.val; omega
  | ⟨1, _⟩ => show win0_1.index t (1 : Fin 2) * 4096 + 1 * k.val = k.val; omega

theorem emb_g (t : Fin cfg0.N) (p : Fin 128) (k : Fin 4096) :
    ((cfg0.win 2).blk t).view.emb (ix2 p k) = ix2 (row t p) k := by
  obtain ⟨-, -, -, -, e4, e5, -⟩ := idx_facts t
  funext a; apply Fin.ext
  match a with
  | ⟨0, _⟩ => show win0_2.index t (0 : Fin 2) * 128 + 1 * p.val = t.val * 128 + p.val; omega
  | ⟨1, _⟩ => show win0_2.index t (1 : Fin 2) * 4096 + 1 * k.val = k.val; omega

theorem emb_o (t : Fin cfg0.N) (p : Fin 128) (k : Fin 4096) :
    ((cfg0.win 3).blk t).view.emb (ix2 p k) = ix2 (row t p) k := by
  obtain ⟨-, -, -, -, -, -, e6, e7⟩ := idx_facts t
  funext a; apply Fin.ext
  match a with
  | ⟨0, _⟩ => show win0_3.index t (0 : Fin 2) * 128 + 1 * p.val = t.val * 128 + p.val; omega
  | ⟨1, _⟩ => show win0_3.index t (1 : Fin 2) * 4096 + 1 * k.val = k.val; omega

variable (m : (ℓ : Loc nD τ sig) → Buf (Elt Ideal) ℓ) (ρ : Dev nD → PrngReg)

/-! ## Each input block read where the output's rows say -/

theorem read_w (c : Dev nD) (t : Fin cfg0.N) (p : Fin 128) (k : Fin 4096) :
    iblk m c 0 t (ix2 p k) = V m c main_arg0 (ix2 (row t p) k) := by
  show V m c main_arg0 (((cfg0.win 0).blk t).view.emb (ix2 p k)) = _
  rw [emb_w]

theorem read_x (c : Dev nD) (t : Fin cfg0.N) (b : Fin 64) (k : Fin 4096) :
    iblk m c 1 t (ix2 b k) = V m c main_v4 (ix2 b k) := by
  show V m c main_v4 (((cfg0.win 1).blk t).view.emb (ix2 b k)) = _
  rw [emb_x]

theorem read_g (c : Dev nD) (t : Fin cfg0.N) (p : Fin 128) (k : Fin 4096) :
    iblk m c 2 t (ix2 p k) = V m c main_arg2 (ix2 (row t p) k) := by
  show V m c main_arg2 (((cfg0.win 2).blk t).view.emb (ix2 p k)) = _
  rw [emb_g]

/-! ## What a point writes back, and the cover -/

/-- Point `t` writes back block `t` of `updated` of the arrays as the kernel finds them. -/
theorem flushed_eq (c : Dev nD) (t : Fin cfg0.N) :
    (dats m 0 c).flushed 3 t = ((cfg0.win 3).blk t).view.read (Elt Ideal)
      (updated (V m c main_arg0) (V m c main_v4) (V m c main_arg2)) := by
  rw [Value.flushed3]
  unfold out0_3
  rw [View.canon_unit_zero hz]
  simp only [View.ld_unit_zero (S := S128x4096) hz, View.ld_unit_zero (S := S64x4096) hz]
  refine funext fun (y : S128x4096.Idx) => ?_
  obtain ⟨p, q, rfl⟩ : ∃ (p : Fin 128) (q : Fin 4096), y = ix2 p q := ⟨y 0, y 1, eq_ix2 y⟩
  show k0_pay1 (F := Ideal) (iblk m c 0 t) (iblk m c 1 t) (iblk m c 2 t) (ix2 p q)
      = updated (V m c main_arg0) (V m c main_v4) (V m c main_arg2) (((cfg0.win 3).blk t).view.emb (ix2 p q))
  rw [emb_o]
  exact stored_eq (V m c main_arg0) (V m c main_v4) (V m c main_arg2) (iblk m c 0 t) (iblk m c 1 t) (iblk m c 2 t)
    p q (row t p) (fun k => read_w m c t p k) (fun b k => read_x m c t b k) (read_g m c t p q)

/-- An index is in point `t`'s block iff each coordinate is in the block's range on its axis. -/
theorem mem_blk (t : Fin cfg0.N) (i : S4096x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v5).slice (win0_3.rect t)).set ↔ _
  rw [View.set_slice_whole, Rect.mem_set_unit]
  exact Iff.rfl

/-- Every entry of the result is in some point's block: row `r` is in point `r / 128`'s. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : (i 0).val / 128 < cfg0.N := by rw [show cfg0.N = 32 from N_0]; omega
  obtain ⟨-, -, -, -, -, -, e6, e7⟩ := idx_facts ⟨(i 0).val / 128, hN⟩
  have e6' : win0_3.index ⟨(i 0).val / 128, hN⟩ (0 : Fin 2) = (i 0).val / 128 := e6
  refine ⟨⟨(i 0).val / 128, hN⟩, flush0_3 _, ?_⟩
  rw [mem_blk]
  intro a
  match a with
  | ⟨0, _⟩ => show win0_3.index ⟨(i 0).val / 128, hN⟩ (0 : Fin 2) * 128 ≤ (i 0).val ∧ (i 0).val < win0_3.index ⟨(i 0).val / 128, hN⟩ (0 : Fin 2) * 128 + 128; omega
  | ⟨1, _⟩ => show win0_3.index ⟨(i 0).val / 128, hN⟩ (1 : Fin 2) * 4096 ≤ (i 1).val ∧ (i 1).val < win0_3.index ⟨(i 0).val / 128, hN⟩ (1 : Fin 2) * 4096 + 4096; omega

/-! ## The normalized rows, as the kernel finds them -/

/-- Each input row divided by its Euclidean norm plus the guard: the operations before the kernel, composed. -/
def normalized (x : FVec Ideal S64x4096 .f32) : FVec Ideal S64x4096 .f32 :=
  Host.divf (F := Ideal) x (broadcastInDim S64x4096 ![0, 1] bcast_S64x1_S64x4096_0_1
    (addf (Host.sqrt (F := Ideal) (broadcastInDim S64x1 ![0] bcast_S64_S64x1_0
        (Host.reduceAdd (F := Ideal) (mulf x x) (constant (F := Ideal) S_ .f32 0x00000000#32) reducesTo_S64x4096_S64_d1 h_S_)))
      (broadcastInDim S64x1 ![] bcast_S_S64x1 (constant (F := Ideal) S_ .f32 0x322BCC77#32))))

/-- The second operand's array, when the kernel starts, holds the normalized rows of the second argument. -/
theorem V_normalized (c : Dev nD) :
    (V m c main_v4 : S64x4096.Idx → EReal) = normalized (m ((c : Thread nD τ).loc main_arg1)) := by
  dsimp only [V]
  simp only [hostOps0, hostOps0_1, List.flatten_cons, List.flatten_nil, List.append_nil, List.cons_append,
    List.nil_append]
  after_results
  rfl

/-! ## The array after the run -/

/-- The result array ends holding `updated` of the weights, the normalized input rows and the gradient. -/
theorem final (c : Dev nD) :
    (dats m 0 c).arrAt 3 cfg0.N
      = updated (m ((c : Thread nD τ).loc main_arg0)) (normalized (m ((c : Thread nD τ).loc main_arg1)))
          (m ((c : Thread nD τ).loc main_arg2)) := by
  rw [(dats m 0 c).arrAt_eq_of_cover 3 (updated (V m c main_arg0) (V m c main_v4) (V m c main_arg2))
    (fun t _ => flushed_eq m c t) cover]
  rw [V_main_arg0, V_main_arg2, V_normalized]

/-- The kernel's run, read: the result array at `updated`, the arguments unchanged. -/
theorem run : θ_run defs (onTc (τ := τ) (main (F := Ideal))) ⟨m, fun _ => 0, ρ⟩ fun r => ∀ c : Dev nD,
      r.2.mem ((c : Thread nD τ).loc main_v5)
        = updated (m ((c : Thread nD τ).loc main_arg0)) (normalized (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Body

end
-- ==== Proof.Bridge.lean ====
/-
  The two arrangements are one function.

  For real entries the reference's result — the weights times the decay matrix, minus the learning rate times the
  gradient — is the kernel's — the weights minus the folded scale times the row pushed through the normalized rows'
  transpose and back, minus the same term. The normalized rows are real because a row's sum of squares is a nonnegative
  real, its square root a real, and the guard a positive real, so the divisor is a positive real. The decay rate's word
  over the batch size's word is exactly the kernel's folded scale.
-/
import proofs.«158902_j73916387164402_2_alg».proof.Proof.Law
import proofs.«158902_j73916387164402_2_alg».proof.Proof.RefRead
import proofs.«158902_j73916387164402_2_alg».proof.Proof.KernelArray

noncomputable section

namespace Cert.DecayStep

open Idealize.ShloMosaic Idealize.ShloMosaic.ValueIdx
open Cert.ReferenceIdeal.Read Cert.ReferenceIdeal.RefValue

/-- The normalized rows of a real array are real. -/
theorem normalized_real (x1 : FVec Ideal Cert.ReferenceIdeal.S64x4096 .f32) (hx : ∀ i, ∃ r : ℝ, x1 i = (r : EReal))
    (b : Fin 64) (k : Fin 4096) : ∃ r : ℝ, val_main_v4 (F := Ideal) x1 (ix2 b k) = (r : EReal) := by
  choose x hx using hx
  rw [normalized_apply]
  simp only [hx]
  rw [ofBits_guard, zero_add]
  have hs : (∑ k' : Fin 4096, ((x (ix2 b k') : ℝ) : EReal) * ((x (ix2 b k') : ℝ) : EReal))
      = ((∑ k' : Fin 4096, x (ix2 b k') * x (ix2 b k') : ℝ) : EReal) := by
    rw [coe_sum]; simp only [EReal.coe_mul]
  rw [hs, Ideal.sqrt_coe, if_neg (not_lt.2 (Finset.sum_nonneg fun k' _ => mul_self_nonneg _)), ← EReal.coe_add,
    Ideal.div_coe (ne_of_gt (by positivity))]
  exact ⟨_, (EReal.coe_mul _ _).symm⟩

/-- The kernel's normalized rows and the reference's are the same composition of the same operations. -/
theorem normalized_eq (x1 : FVec Ideal Cert.ReferenceIdeal.S64x4096 .f32) :
    Cert.KernelIdeal.Body.normalized x1 = val_main_v4 (F := Ideal) x1 := rfl

/-- For real weights and real inputs, the reference's result is the kernel's whole-array function. -/
theorem result_eq (W : FVec Ideal Cert.ReferenceIdeal.S4096x4096 .f32) (x1 : FVec Ideal Cert.ReferenceIdeal.S64x4096 .f32)
    (G : FVec Ideal Cert.ReferenceIdeal.S4096x4096 .f32)
    (hW : ∀ i, ∃ r : ℝ, W i = (r : EReal)) (hx : ∀ i, ∃ r : ℝ, x1 i = (r : EReal)) :
    val_main_v20 (F := Ideal) W x1 G = Cert.KernelIdeal.Body.updated W (Cert.KernelIdeal.Body.normalized x1) G := by
  funext idx
  obtain ⟨i, j, rfl⟩ : ∃ (i j : Fin 4096), idx = ix2 i j := ⟨idx 0, idx 1, eq_ix2 idx⟩
  rw [result_apply, normalized_eq]
  show _ = Cert.KernelIdeal.Body.updatedAt W (val_main_v4 (F := Ideal) x1) G i j
  unfold Cert.KernelIdeal.Body.updatedAt
  choose w hw using hW
  choose x hxx using normalized_real x1 hx
  simp only [hw, hxx]
  rw [ofBits_rate, ofBits_batch, ofBits_scale]
  exact congrArg (· - Ideal.ofBits .f32 0x3A83126F#32 * G (ix2 i j))
    (ereal_law (fun k => w (ix2 i k)) x (10737418 / 2 ^ 30) 64 (by norm_num) j)

end Cert.DecayStep

end
-- ==== Proof.lean ====
/-
  One gradient step with a rank-64 decay, computed two ways, gives the same weights.

  The reference forms the 4096 × 4096 decay matrix `I - rate · (xnᵀ xn) / 64` from the normalized input rows `xn` and
  multiplies the weights by it; the kernel never forms that matrix: for each block of 128 weight rows it computes
  `W - (rate / 64) · (W xnᵀ) xn` with two thin products, then both subtract the learning rate times the gradient. On
  the extended reals, with every input a real number, the two are equal entry by entry: distributivity, the exchange of
  the sums over the 64 rows and the 4096 columns, and `∑ k, W i k · δ k j = W i j` (module Law); the float formats the
  kernel passes through on the way are the identity there, and the kernel's folded scale is exactly the rate's word
  divided by 64.

  The modules: Law (the algebra and the four literals), Payload (what a grid point stores, at an entry), KernelArray
  (the 32 row blocks tile the result; the kernel's run), RefRead (the reference's result at an entry), Reals (the
  precondition makes every entry real), Bridge (the two whole-array functions agree). Here: the three frames, the
  idealization conjunct (no rewrite was applied, so it is `True`), and the value conjunct from the two runs.
-/
import proofs.«158902_j73916387164402_2_alg».proof.Defs
import proofs.«158902_j73916387164402_2_alg».proof.Proof.Gen.Kernel
import proofs.«158902_j73916387164402_2_alg».proof.Proof.Gen.Kernel.Skeleton
import proofs.«158902_j73916387164402_2_alg».proof.Proof.Gen.Kernel.Launch
import proofs.«158902_j73916387164402_2_alg».proof.Proof.Gen.Kernel.Points
import proofs.«158902_j73916387164402_2_alg».proof.Proof.Gen.Kernel.Frame
import proofs.«158902_j73916387164402_2_alg».proof.Proof.Gen.KernelIdeal
import proofs.«158902_j73916387164402_2_alg».proof.Proof.Gen.KernelIdeal.Skeleton
import proofs.«158902_j73916387164402_2_alg».proof.Proof.Gen.KernelIdeal.Launch
import proofs.«158902_j73916387164402_2_alg».proof.Proof.Gen.KernelIdeal.Points
import proofs.«158902_j73916387164402_2_alg».proof.Proof.Gen.KernelIdeal.Frame
import proofs.«158902_j73916387164402_2_alg».proof.Proof.Gen.KernelIdeal.Value
import proofs.«158902_j73916387164402_2_alg».proof.Proof.Gen.ReferenceIdeal
import proofs.«158902_j73916387164402_2_alg».proof.Proof.Gen.ReferenceIdeal.Run
import proofs.«158902_j73916387164402_2_alg».proof.Proof.Gen.ReferenceIdeal.Read
import proofs.«158902_j73916387164402_2_alg».proof.Proof.Gen.Pre_finite_inputs
import proofs.«158902_j73916387164402_2_alg».proof.Proof.Reals
import proofs.«158902_j73916387164402_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealized kernel is the kernel's own text read on the extended reals. -/
theorem preserves : Cert.preserves_Kernel_KernelIdeal := trivial

/-- Both programs end with the result array at the kernel's whole-array function of the arguments: the kernel by its
    run read block by block, the reference because its result is that function when the inputs are real. -/
theorem algebraic : Cert.algebraic_KernelIdeal_ReferenceIdeal := by
  intro m ρ m' ρ' hpre hagree
  refine ⟨fun c => Cert.KernelIdeal.Body.updated (m ((c : Thread Cert.KernelIdeal.nD Cert.KernelIdeal.τ).loc Cert.KernelIdeal.main_arg0))
      (Cert.KernelIdeal.Body.normalized (m ((c : Thread Cert.KernelIdeal.nD Cert.KernelIdeal.τ).loc Cert.KernelIdeal.main_arg1)))
      (m ((c : Thread Cert.KernelIdeal.nD Cert.KernelIdeal.τ).loc Cert.KernelIdeal.main_arg2)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨hW, hx, -⟩ := Cert.Pre_finite_inputs.Reals.reals_of_pre _ _ _ (hpre c)
  rw [Cert.ReferenceIdeal.Read.val_main_v20_eq, (hagree c).1, (hagree c).2.1, (hagree c).2.2]
  exact Cert.DecayStep.result_eq _ _ _ hW hx

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
